-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x6 : Shape := ⟨2, ![4000000, 6]⟩
abbrev S4000000x4 : Shape := ⟨2, ![4000000, 4]⟩
abbrev S_ : Shape := ⟨0, ![]⟩

class Facts : Prop where
  bcast_S_S4000000x6 : S_.BroadcastsInDim S4000000x6 (![] : Fin 0 → Fin S4000000x6.rank)
  reducesTo_S4000000x6_S_d0_1 : S4000000x6.ReducesTo [0, 1] S_
  h_S_ : 0 < S_.numel
  bcast_S_S4000000x4 : S_.BroadcastsInDim S4000000x4 (![] : Fin 0 → Fin S4000000x4.rank)
  reducesTo_S4000000x4_S_d0_1 : S4000000x4.ReducesTo [0, 1] S_

variable [Facts]

def fn {F : FTy → Type} [FloatOps F] (main_arg0 : FVec F S4000000x6 .f32) (main_arg1 : FVec F S4000000x4 .f32) : IVec S_ 1 :=
  let main_v0 : FVec F S4000000x6 .f32 := Host.absf main_arg0
  let main_cst : FVec F S_ .f32 := constant S_ .f32 0x7F800000#32
  let main_v1 : FVec F S4000000x6 .f32 := broadcastInDim S4000000x6 ![] bcast_S_S4000000x6 main_cst
  let main_v2 : IVec S4000000x6 1 := cmpf .olt main_v0 main_v1
  let main_c : IVec S_ 1 := constantI S_ 1 1#1
  let main_v3 : IVec S_ 1 := (fun x v => Host.reduce IntOp.andi x v reducesTo_S4000000x6_S_d0_1 h_S_) main_v2 main_c
  let main_v4 : FVec F S4000000x4 .f32 := Host.absf main_arg1
  let main_cst_0 : FVec F S_ .f32 := constant S_ .f32 0x7F800000#32
  let main_v5 : FVec F S4000000x4 .f32 := broadcastInDim S4000000x4 ![] bcast_S_S4000000x4 main_cst_0
  let main_v6 : IVec S4000000x4 1 := cmpf .olt main_v4 main_v5
  let main_c_1 : IVec S_ 1 := constantI S_ 1 1#1
  let main_v7 : IVec S_ 1 := (fun x v => Host.reduce IntOp.andi x v reducesTo_S4000000x4_S_d0_1 h_S_) main_v6 main_c_1
  let main_v8 : IVec S_ 1 := andi main_v3 main_v7
  main_v8
-- ==== Kernel.lean ====
abbrev S4000000x6 : Shape := ⟨2, ![4000000, 6]⟩
abbrev S4000000x4 : Shape := ⟨2, ![4000000, 4]⟩
abbrev S1x1 : Shape := ⟨2, ![1, 1]⟩
abbrev S20000x6 : Shape := ⟨2, ![20000, 6]⟩
abbrev S20000x4 : Shape := ⟨2, ![20000, 4]⟩
abbrev S20000x1 : Shape := ⟨2, ![20000, 1]⟩
abbrev S20000 : Shape := ⟨1, ![20000]⟩
abbrev S1x20000 : Shape := ⟨2, ![1, 20000]⟩
abbrev S1 : Shape := ⟨1, ![1]⟩
abbrev S_ : Shape := ⟨0, ![]⟩

abbrev nBuf : Space → Nat
  | .hbm => 4
  | .vmem => 7
  | .smem => 0
  | _ => 0

abbrev bufTy : (tb : Table) → Fin (tcTables nBuf tb) → BufTy
  | .hbm, ⟨0, _⟩ => ⟨S4000000x6, .f32⟩
  | .hbm, ⟨1, _⟩ => ⟨S4000000x4, .f32⟩
  | .hbm, ⟨2, _⟩ => ⟨S1x1, .f32⟩
  | .hbm, ⟨3, _⟩ => ⟨S_, .f32⟩
  | .local _ .vmem, ⟨0, _⟩ => ⟨S20000x6, .f32⟩
  | .local _ .vmem, ⟨1, _⟩ => ⟨S20000x6, .f32⟩
  | .local _ .vmem, ⟨2, _⟩ => ⟨S20000x4, .f32⟩
  | .local _ .vmem, ⟨3, _⟩ => ⟨S20000x4, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | _, _ => ⟨S4000000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![200], ![false]⟩

def k0_cond2 (i : grid0.Coords) : BitVec 1 :=
  let arg0 : BitVec 32 := BitVec.ofNat 32 (i 0).val
  let c199_i32 : BitVec 32 := 199#32
  let v36 : BitVec 1 := Scalar.cmpi .eq arg0 c199_i32
  let v37 : BitVec 32 := Scalar.extui v36
  let c0_i32_15 : BitVec 32 := 0#32
  let v38 : BitVec 1 := Scalar.cmpi .ne v37 c0_i32_15
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S20000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S20000x6_S20000x6_0_0 : ∀ a, (![0, 0] : Fin 2 → Nat) a + S20000x6.size a ≤ S20000x6.size a
  h_S20000x6 : 0 < S20000x6.numel
  inb_S20000x4_S20000x4_0_0 : ∀ a, (![0, 0] : Fin 2 → Nat) a + S20000x4.size a ≤ S20000x4.size a
  h_S20000x4 : 0 < S20000x4.numel
  slices_S20000x6_o0_4_S20000x1 : S20000x6.Slices ![0, 4] S20000x1
  shapeCasts_S20000x1_S20000 : S20000x1.ShapeCasts S20000
  natLt_1_32 : 1 < 32
  slices_S20000x6_o0_5_S20000x1 : S20000x6.Slices ![0, 5] S20000x1
  reduces_S20000x4_S20000 : S20000x4.Reduces [1] S20000
  shapeCasts_S20000_S1x20000 : S20000.ShapeCasts S1x20000
  reduces_S1x20000_S1 : S1x20000.Reduces [1] S1
  shapeCasts_S1_S1x1 : S1.ShapeCasts S1x1
  inpos_S1x1_p0_0 : ∀ a, (![0, 0] : Fin 2 → Nat) a < S1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x6.size a ≤ S4000000x6.size a
  hwx0_0 : ∀ i : grid0.Coords, EltTy.bits .f32 = 32 ∨ (Rect.block (s := S4000000x6) S20000x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x4.size a ≤ S4000000x4.size a
  hwx0_1 : ∀ i : grid0.Coords, EltTy.bits .f32 = 32 ∨ (Rect.block (s := S4000000x4) S20000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S20000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S20000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4000000x6 : Shape := ⟨2, ![4000000, 6]⟩
abbrev S4000000x4 : Shape := ⟨2, ![4000000, 4]⟩
abbrev S4000000x1 : Shape := ⟨2, ![4000000, 1]⟩
abbrev S4000000 : Shape := ⟨1, ![4000000]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4000000x6, .f32⟩
  | .hbm, ⟨1, _⟩ => ⟨S4000000x4, .f32⟩
  | .hbm, ⟨2, _⟩ => ⟨S4000000x1, .f32⟩
  | .hbm, ⟨3, _⟩ => ⟨S4000000, .f32⟩
  | .hbm, ⟨4, _⟩ => ⟨S_, .f32⟩
  | .hbm, ⟨5, _⟩ => ⟨S4000000, .f32⟩
  | .hbm, ⟨6, _⟩ => ⟨S4000000, .i1⟩
  | .hbm, ⟨7, _⟩ => ⟨S4000000, .f32⟩
  | .hbm, ⟨8, _⟩ => ⟨S4000000x1, .f32⟩
  | .hbm, ⟨9, _⟩ => ⟨S4000000, .f32⟩
  | .hbm, ⟨10, _⟩ => ⟨S_, .f32⟩
  | .hbm, ⟨11, _⟩ => ⟨S4000000, .f32⟩
  | .hbm, ⟨12, _⟩ => ⟨S4000000, .f32⟩
  | .hbm, ⟨13, _⟩ => ⟨S4000000, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .i1⟩
  | .hbm, ⟨18, _⟩ => ⟨S4000000x1, .f32⟩
  | .hbm, ⟨19, _⟩ => ⟨S4000000, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S4000000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  slices_S4000000x6_S4000000x1_0_4 : S4000000x6.Slices ![0, 4] S4000000x1
  shapeCasts_S4000000x1_S4000000 : S4000000x1.ShapeCasts S4000000
  bcast_S_S4000000 : S_.BroadcastsInDim S4000000 (![] : Fin 0 → Fin S4000000.rank)
  slices_S4000000x6_S4000000x1_0_5 : S4000000x6.Slices ![0, 5] S4000000x1
  reducesTo_S4000000x4_S4000000_d1 : S4000000x4.ReducesTo [1] S4000000
  h_S_ : 0 < S_.numel
  reducesTo_S4000000_S_d0 : S4000000.ReducesTo [0] S_

variable [Facts₀]

class Facts : Prop extends Facts₀ where

variable [Facts]
-- ==== Proof.Pieces.lean ====
import proofs.«124776_j17643725652510_2_alg».proof.Proof.Gen.KernelIdeal.Frame
import Idealize.ShloMosaic.Lib.Pipeline.Value
import Idealize.ShloMosaic.Lib.Tactic

/-!
# What one grid point leaves behind

The kernel keeps two one-entry accumulators (the masked loss and the confidence sum) across its 200 grid
points and writes its one-entry result at the last point.  A grid point is of one of three kinds:

* the first point clears both accumulators and then adds the point's two partial sums to them;
* a middle point adds the point's two partial sums to what the point before left;
* the last point does what a middle point does and then stores the result, computed from the two
  accumulators it has just updated.

For each kind this file says what each accumulator (and, at the last point, the result entry) holds after
the point, as the body's own arithmetic applied to the point's two input blocks and to what the point
before left.  Nothing here depends on how numbers are represented.
-/

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offset of a read or a store of a whole buffer. -/
theorem hz : (![0, 0] : Fin 2 → Nat) = fun _ => 0 := funext fun a => by fin_cases a <;> rfl

/-! ## The first point: cleared, then one partial sum added -/

/-- After the first point the loss accumulator holds the cleared value plus the point's masked partial sum. -/
theorem loss_first (c : Dev nD) (i : grid0.Coords) (arg1 : Memref sig .tc .vmem S20000x6 .f32) (harg1 : arg1.IsWhole) (arg2 : Memref sig .tc .vmem S20000x4 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S20000x6 .f32) (x1 : Vec F S20000x4 .f32) :
    sout0_A_0 c i arg1 harg1 arg2 harg2 arg3 harg3 arg4 harg4 arg5 harg5 hc0 hc1 x0 x1 = k0_pay5 x0 x1 (k0_pay2 (F := F)) := by
  unfold sout0_A_0
  rw [View.read_writes_eq_canon _ _ _ (scover0_A_0 c i arg1 harg1 arg2 harg2 arg3 harg3 arg4 harg4 arg5 harg5 hc0 hc1 x0 x1)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread,
    View.ld_unit_zero (S := S20000x6) hz, View.ld_unit_zero (S := S20000x4) hz, View.ld_unit_zero (S := S1x1) hz]

/-- After the first point the confidence accumulator holds the cleared value plus the point's confidence sum. -/
theorem conf_first (c : Dev nD) (i : grid0.Coords) (arg1 : Memref sig .tc .vmem S20000x6 .f32) (harg1 : arg1.IsWhole) (arg2 : Memref sig .tc .vmem S20000x4 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S20000x6 .f32) (x1 : Vec F S20000x4 .f32) :
    sout0_A_1 c i arg1 harg1 arg2 harg2 arg3 harg3 arg4 harg4 arg5 harg5 hc0 hc1 x0 x1 = k0_pay6 x0 (k0_pay3 (F := F)) := by
  unfold sout0_A_1
  rw [View.read_writes_eq_canon _ _ _ (scover0_A_1 c i arg1 harg1 arg2 harg2 arg3 harg3 arg4 harg4 arg5 harg5 hc0 hc1 x0 x1)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread,
    View.ld_unit_zero (S := S20000x6) hz, View.ld_unit_zero (S := S20000x4) hz, View.ld_unit_zero (S := S1x1) hz]

/-! ## A middle point: one partial sum added to what the point before left -/

theorem loss_middle (c : Dev nD) (i : grid0.Coords) (arg1 : Memref sig .tc .vmem S20000x6 .f32) (harg1 : arg1.IsWhole) (arg2 : Memref sig .tc .vmem S20000x4 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S20000x6 .f32) (x1 : Vec F S20000x4 .f32) (xs0 : Vec F S1x1 .f32) (xs1 : Vec F S1x1 .f32) :
    sout0_B_0 c i arg1 harg1 arg2 harg2 arg3 harg3 arg4 harg4 arg5 harg5 hc0 hc1 x0 x1 xs0 xs1 = k0_pay5 x0 x1 xs0 := by
  unfold sout0_B_0
  rw [View.read_writes_eq_canon _ _ _ (scover0_B_0 c i arg1 harg1 arg2 harg2 arg3 harg3 arg4 harg4 arg5 harg5 hc0 hc1 x0 x1 xs0 xs1)]
  unfold kernelRun0_B
  dsimp only
  rw [View.canon_unit_zero hz]
  simp only [View.readAt_eq_ld, harg1.read_unread, harg2.read_unread, harg3.read_unread, harg4.read_unread, harg5.read_unread,
    View.ld_unit_zero (S := S20000x6) hz, View.ld_unit_zero (S := S20000x4) hz, View.ld_unit_zero (S := S1x1) hz]

theorem conf_middle (c : Dev nD) (i : grid0.Coords) (arg1 : Memref sig .tc .vmem S20000x6 .f32) (harg1 : arg1.IsWhole) (arg2 : Memref sig .tc .vmem S20000x4 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S20000x6 .f32) (x1 : Vec F S20000x4 .f32) (xs0 : Vec F S1x1 .f32) (xs1 : Vec F S1x1 .f32) :
    sout0_B_1 c i arg1 harg1 arg2 harg2 arg3 harg3 arg4 harg4 arg5 harg5 hc0 hc1 x0 x1 xs0 xs1 = k0_pay6 x0 xs1 := by
  unfold sout0_B_1
  rw [View.read_writes_eq_canon _ _ _ (scover0_B_1 c i arg1 harg1 arg2 harg2 arg3 harg3 arg4 harg4 arg5 harg5 hc0 hc1 x0 x1 xs0 xs1)]
  unfold kernelRun0_B
  dsimp only
  rw [View.canon_unit_zero hz]
  simp only [View.readAt_eq_ld, harg1.read_unread, harg2.read_unread, harg3.read_unread, harg4.read_unread, harg5.read_unread,
    View.ld_unit_zero (S := S20000x6) hz, View.ld_unit_zero (S := S20000x4) hz, View.ld_unit_zero (S := S1x1) hz]

/-! ## The last point: the same update, then the result stored from the updated accumulators -/

theorem loss_last (c : Dev nD) (i : grid0.Coords) (arg1 : Memref sig .tc .vmem S20000x6 .f32) (harg1 : arg1.IsWhole) (arg2 : Memref sig .tc .vmem S20000x4 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S20000x6 .f32) (x1 : Vec F S20000x4 .f32) (xs0 : Vec F S1x1 .f32) (xs1 : Vec F S1x1 .f32) :
    sout0_C_0 c i arg1 harg1 arg2 harg2 arg3 harg3 arg4 harg4 arg5 harg5 hc0 hc1 x0 x1 xs0 xs1 = k0_pay5 x0 x1 xs0 := by
  unfold sout0_C_0
  rw [View.read_writes_eq_canon _ _ _ (scover0_C_0 c i arg1 harg1 arg2 harg2 arg3 harg3 arg4 harg4 arg5 harg5 hc0 hc1 x0 x1 xs0 xs1)]
  unfold kernelRun0_C
  dsimp only
  sl_unfold_words
  rw [View.canon_unit_zero hz]
  simp only [View.readAt_eq_ld, harg1.read_unread, harg2.read_unread, harg3.read_unread, harg4.read_unread, harg5.read_unread,
    View.ld_unit_zero (S := S20000x6) hz, View.ld_unit_zero (S := S20000x4) hz, View.ld_unit_zero (S := S1x1) hz]

theorem conf_last (c : Dev nD) (i : grid0.Coords) (arg1 : Memref sig .tc .vmem S20000x6 .f32) (harg1 : arg1.IsWhole) (arg2 : Memref sig .tc .vmem S20000x4 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S20000x6 .f32) (x1 : Vec F S20000x4 .f32) (xs0 : Vec F S1x1 .f32) (xs1 : Vec F S1x1 .f32) :
    sout0_C_1 c i arg1 harg1 arg2 harg2 arg3 harg3 arg4 harg4 arg5 harg5 hc0 hc1 x0 x1 xs0 xs1 = k0_pay6 x0 xs1 := by
  unfold sout0_C_1
  rw [View.read_writes_eq_canon _ _ _ (scover0_C_1 c i arg1 harg1 arg2 harg2 arg3 harg3 arg4 harg4 arg5 harg5 hc0 hc1 x0 x1 xs0 xs1)]
  unfold kernelRun0_C
  dsimp only
  sl_unfold_words
  rw [View.canon_unit_zero hz]
  simp only [View.readAt_eq_ld, harg1.read_unread, harg2.read_unread, harg3.read_unread, harg4.read_unread, harg5.read_unread,
    View.ld_unit_zero (S := S20000x6) hz, View.ld_unit_zero (S := S20000x4) hz, View.ld_unit_zero (S := S1x1) hz]

/-- The result entry stored at the last point: the fallback rule applied to the two accumulators as the last
    point has just updated them. -/
theorem result_last (c : Dev nD) (i : grid0.Coords) (arg1 : Memref sig .tc .vmem S20000x6 .f32) (harg1 : arg1.IsWhole) (arg2 : Memref sig .tc .vmem S20000x4 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S20000x6 .f32) (x1 : Vec F S20000x4 .f32) (xs0 : Vec F S1x1 .f32) (xs1 : Vec F S1x1 .f32) :
    out0_C_2 c i arg1 harg1 arg2 harg2 arg3 harg3 arg4 harg4 arg5 harg5 hc0 hc1 x0 x1 xs0 xs1 = k0_pay1 (k0_pay5 x0 x1 xs0) (k0_pay6 x0 xs1) := by
  unfold out0_C_2
  rw [View.read_writes_eq_canon _ _ _ (cover0_C_2 c i arg1 harg1 arg2 harg2 arg3 harg3 arg4 harg4 arg5 harg5 hc0 hc1 x0 x1 xs0 xs1)]
  unfold kernelRun0_C
  dsimp only
  sl_unfold_words
  rw [View.canon_unit_zero hz]
  simp only [View.readAt_eq_ld, harg1.read_unread, harg2.read_unread, harg3.read_unread, harg4.read_unread, harg5.read_unread,
    View.ld_unit_zero (S := S20000x6) hz, View.ld_unit_zero (S := S20000x4) hz, View.ld_unit_zero (S := S1x1) hz]
  rw [View.readCov_unit_zero (S := S1x1) arg4.view hz, View.readCov_unit_zero (S := S1x1) arg5.view hz]

end Cert.KernelIdeal.Pieces

end
-- ==== Proof.LibBlockSums.lean ====
/-
  A sum over a long axis taken block by block, as a running sum.

  Three facts in any commutative additive monoid (so in particular on the extended reals, where nothing beyond
  commutativity and associativity of + is used), and two float literals at exact arithmetic.

  * A sum over `Fin (A * B)` is the sum over the `A` blocks of the `B` block sums (`sum_blocks`).
  * The left-nested running sum `((z + s 0) + s 1) + … + s n` is `z` plus the sum of `s` over `0 … n` (`runSum_eq`).
  * Dividing by the literal 0.5 is multiplying by the literal 2.0, on every extended real (`div_half`).
-/
import Idealize.ShloMosaic.PureOps.Ideal.Laws

noncomputable section

open scoped BigOperators

namespace Cert.LibBlockSums

open Idealize.ShloMosaic

/-- A sum over `A * B` consecutive indices, block by block. -/
theorem sum_blocks {M : Type*} [AddCommMonoid M] (A B : Nat) (f : Fin (A * B) → M) :
    ∑ j, f j = ∑ a : Fin A, ∑ b : Fin B, f ⟨a.val * B + b.val, by
      have ha := a.isLt; have hb := b.isLt
      calc a.val * B + b.val < a.val * B + B := by omega
        _ = (a.val + 1) * B := by ring
        _ ≤ A * B := Nat.mul_le_mul_right B ha⟩ := by
  rw [← Equiv.sum_comp (finProdFinEquiv (m := A) (n := B)) f, Fintype.sum_prod_type]
  refine Finset.sum_congr rfl fun a _ => Finset.sum_congr rfl fun b _ => congrArg f (Fin.ext ?_)
  simp only [finProdFinEquiv_apply_val]
  rw [Nat.mul_comm]; omega

/-- The left-nested running sum of `s` started from `z`. -/
def runSum {M : Type*} [Add M] (z : M) (s : Nat → M) : Nat → M
  | 0 => z + s 0
  | n + 1 => runSum z s n + s (n + 1)

theorem runSum_eq {M : Type*} [AddCommMonoid M] (z : M) (s : Nat → M) (n : Nat) :
    runSum z s n = z + ∑ j ∈ Finset.range (n + 1), s j := by
  induction n with
  | zero => simp [runSum]
  | succ n ih => rw [runSum, ih, Finset.sum_range_succ _ (n + 1), add_assoc]

/-- Started from zero and run over all `A` blocks it is the sum over the blocks. -/
theorem runSum_zero_last {M : Type*} [AddCommMonoid M] (A : Nat) (s : Nat → M) :
    runSum 0 s A = ∑ a : Fin (A + 1), s a.val := by
  rw [runSum_eq, zero_add, Finset.sum_range]

/-- The float literal 2.0. -/
theorem ofBits_two : Ideal.ofBits .f32 0x40000000#32 = ((2 : ℝ) : EReal) := by
  simp [Ideal.ofBits, Ideal.ieee, -EReal.coe_mul]; norm_num

/-- The float literal 0.5. -/
theorem ofBits_half : Ideal.ofBits .f32 0x3F000000#32 = ((1 / 2 : ℝ) : EReal) := by
  simp [Ideal.ofBits, Ideal.ieee, -EReal.coe_mul]; norm_num

/-- On every extended real, the quotient by 0.5 is the product with 2.0. -/
theorem div_half (x : EReal) :
    Ideal.div x (Ideal.ofBits .f32 0x3F000000#32) = x * Ideal.ofBits .f32 0x40000000#32 := by
  rw [ofBits_half, ofBits_two, Ideal.div_coe (by norm_num : (1 / 2 : ℝ) ≠ 0)]
  norm_num

end Cert.LibBlockSums

end
-- ==== Proof.Spec.lean ====
import Idealize.ShloMosaic.PureOps.Ideal.Laws
import Idealize.ShloMosaic.Lib.ValueIdx
import proofs.«124776_j17643725652510_2_alg».proof.Proof.LibBlockSums

/-!
# The thresholded detection loss as one function of the two arrays

For `N` rows, each row `r` of the detections array `P` (six columns) carries a confidence `P r 4` and a class
score `P r 5`, and the matching row of the boxes array `B` (four columns) carries four coordinates.  A row
counts when its confidence is at least 1/4; the loss is the sum, over the rows that count, of the class score
plus the four coordinates.  If that sum is exactly zero the answer is the sum of all confidences times zero,
otherwise it is the sum itself.

Everything is over the extended reals.  The only law used to compare two ways of computing the loss is that
a finite sum may be taken in consecutive blocks and accumulated block by block — commutativity and
associativity of addition, which hold for infinite values too, so no finiteness assumption is needed.
-/

noncomputable section

open scoped BigOperators

namespace Cert.Spec

open Idealize.ShloMosaic Idealize.ShloMosaic.ValueIdx

/-- The indicator of "confidence at least 1/4": 1 when it holds, 0 otherwise. -/
def mask (x : EReal) : EReal :=
  FloatOps.uitofp (F := Ideal) .f32 (Ideal.cmp .oge x (Ideal.ofBits .f32 0x3E800000#32))

/-- Widening a one-bit truth value to 32 bits and reading it as a signed integer gives the same number (0 or 1)
    as reading the bit itself as an unsigned integer. -/
theorem signed_of_widened (b : BitVec 1) :
    FloatOps.sitofp (F := Ideal) .f32 (b.setWidth 32) = FloatOps.uitofp (F := Ideal) .f32 b := by
  show (((b.setWidth 32).toInt : ℝ) : EReal) = ((b.toNat : ℝ) : EReal)
  have h : (b.setWidth 32).toInt = (b.toNat : Int) := by revert b; decide
  rw [h, Int.cast_natCast]

/-- Row `r`'s contribution: the indicator times (class score + the four box coordinates). -/
def rowTerm {R : Nat} (P : (⟨2, ![R, 6]⟩ : Shape).Idx → EReal) (B : (⟨2, ![R, 4]⟩ : Shape).Idx → EReal) (r : Fin R) : EReal :=
  mask (P (ix2 r (4 : Fin 6))) * (P (ix2 r (5 : Fin 6)) + ∑ k : Fin 4, B (ix2 r k))

/-- Row `r`'s confidence. -/
def rowConf {R : Nat} (P : (⟨2, ![R, 6]⟩ : Shape).Idx → EReal) (r : Fin R) : EReal := P (ix2 r (4 : Fin 6))

/-- The fallback rule: a loss that is exactly zero is replaced by (confidence sum) · 0. -/
def fallback (L C : EReal) : EReal :=
  Scalar.select (Ideal.cmp .oeq L (Ideal.ofBits .f32 0x00000000#32)) (C * Ideal.ofBits .f32 0x00000000#32) L

/-- The answer, from the whole arrays. -/
def total (P : (⟨2, ![4000000, 6]⟩ : Shape).Idx → EReal) (B : (⟨2, ![4000000, 4]⟩ : Shape).Idx → EReal) : EReal :=
  fallback (∑ r : Fin 4000000, rowTerm P B r) (∑ r : Fin 4000000, rowConf P r)

/-! ## Two hundred blocks of twenty thousand rows -/

/-- Row `j` of block `t` is row `20000 · t + j` of the array. -/
def blockRow (t : Fin 200) (j : Fin 20000) : Fin 4000000 :=
  ⟨t.val * 20000 + j.val, by have := t.isLt; have := j.isLt; omega⟩

/-- A sum over all rows is the sum over the blocks of the block sums. -/
theorem sum_by_blocks (f : Fin 4000000 → EReal) :
    ∑ r, f r = ∑ t : Fin 200, ∑ j : Fin 20000, f (blockRow t j) :=
  Cert.LibBlockSums.sum_blocks 200 20000 f

/-- The block sums as a sequence indexed by all naturals (zero past the last block). -/
def seqOf (g : Fin 200 → EReal) : Nat → EReal := fun n => if h : n < 200 then g ⟨n, h⟩ else 0

theorem seqOf_lt (g : Fin 200 → EReal) (n : Nat) (h : n < 200) : seqOf g n = g ⟨n, h⟩ := dif_pos h

/-- Started from zero and accumulated one block at a time through the last block, the running sum is the
    sum over the blocks. -/
theorem run_all (g : Fin 200 → EReal) : Cert.LibBlockSums.runSum 0 (seqOf g) 199 = ∑ t : Fin 200, g t := by
  rw [Cert.LibBlockSums.runSum_zero_last 199 (seqOf g)]
  exact Finset.sum_congr rfl fun t _ => seqOf_lt g t.val t.isLt

/-- So accumulating the block sums of `f` from zero through the last block gives the sum of `f` over all rows. -/
theorem run_all_rows (f : Fin 4000000 → EReal) :
    Cert.LibBlockSums.runSum 0 (seqOf fun t => ∑ j : Fin 20000, f (blockRow t j)) 199 = ∑ r, f r := by
  rw [run_all, sum_by_blocks]

end Cert.Spec

end
-- ==== Proof.LibVectorReads.lean ====
/-
  A few vector layout operations and sums read at an entry, in exact arithmetic, for any extents.

  * A bias vector of length `N` cast to one row `[1, N]` and repeated over `R` rows reads, at `(r, n)`, the vector at `n`.
  * A sum over the last axis of a rank-3 array reads, at `(r, m)`, the sum over the last coordinate; the same for a
    rank-2 array at `r`.
  * An `[A, B]` array cast to `[A, 1, B]` reads, at `(r, u, k)`, the operand at `(r, k)`.
  * A `[K, 1]` column cast to a vector of length `K` reads, at `k`, the column at `(k, 0)`.
  * An `[R, 1, C]` array repeated along the middle axis to `[R, n, C]` reads, at `(r, m, k)`, the operand at `(r, 0, k)`.
-/
import Idealize.ShloMosaic.Lib.ValueLayout
import Idealize.ShloMosaic.Lib.Pipeline.Value
import Idealize.ShloMosaic.PureOps.Ideal.Laws

noncomputable section

open scoped BigOperators

namespace Cert.LibVectorReads

open Idealize.ShloMosaic Idealize.ShloMosaic.ValueIdx

/-- A bias vector cast to one row and repeated over `R` rows reads, at `(r, n)`, the vector at `n`. -/
theorem bias_rows_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- The sum over the last axis of an `[A, B, C]` array, at `(r, m)`. -/
theorem sum_last3_apply {A B C : ℕ} (src : FVec Ideal ⟨3, ![A, B, C]⟩ .f32)
    (h : (⟨3, ![A, B, C]⟩ : Shape).Reduces [(2 : Fin 3)] ⟨2, ![A, B]⟩) (hφ : FKind.Formats .f32)
    (hacc : (0x00000000#32 : BitVec 32) = FKind.add.neutral .f32 hφ) (r : Fin A) (m : Fin B) :
    multiReduction .add [(2 : Fin 3)] ⟨2, ![A, B]⟩ src 0x00000000#32 h hφ hacc (ix2 r m)
      = ∑ k : Fin C, src (ix3 r m k) := by
  refine (Ideal.multiReduction_add_single src _ h hφ hacc (ix2 r m)).trans ?_
  refine Finset.sum_congr rfl fun k _ => congrArg src ?_
  funext c
  apply Fin.ext
  match c with
  | ⟨0, _⟩ => rfl
  | ⟨1, _⟩ => rfl
  | ⟨2, _⟩ => rfl

/-- The sum over the last axis of an `[A, B]` array, at `r`. -/
theorem sum_last2_apply {A B : ℕ} (src : FVec Ideal ⟨2, ![A, B]⟩ .f32)
    (h : (⟨2, ![A, B]⟩ : Shape).Reduces [(1 : Fin 2)] ⟨1, ![A]⟩) (hφ : FKind.Formats .f32)
    (hacc : (0x00000000#32 : BitVec 32) = FKind.add.neutral .f32 hφ) (r : Fin A) :
    multiReduction .add [(1 : Fin 2)] ⟨1, ![A]⟩ src 0x00000000#32 h hφ hacc (ix1 r)
      = ∑ k : Fin B, src (ix2 r k) := by
  refine (Ideal.multiReduction_add_single src _ h hφ hacc (ix1 r)).trans ?_
  refine Finset.sum_congr rfl fun k _ => congrArg src ?_
  funext c
  apply Fin.ext
  match c with
  | ⟨0, _⟩ => rfl
  | ⟨1, _⟩ => rfl

/-- An `[A, B]` array cast to `[A, 1, B]` reads, at `(r, u, k)`, the operand at `(r, k)`. -/
theorem shapeCast_ab_a1b_apply {α : Type} {A B : ℕ} (x : (⟨2, ![A, B]⟩ : Shape).Idx → α)
    (h : (⟨2, ![A, B]⟩ : Shape).ShapeCasts ⟨3, ![A, 1, B]⟩) (r : Fin A) (u : Fin 1) (k : Fin B) :
    shapeCast ⟨3, ![A, 1, B]⟩ x h (ix3 r u k) = x (ix2 r k) :=
  shapeCast_apply x h _ _ (by
    have hu : u.val = 0 := by omega
    rw [Shape.rowMajor_val_two, Shape.rowMajor_val_three]
    show r.val * B + k.val = (r.val * 1 + u.val) * B + k.val
    rw [hu, Nat.mul_one, Nat.add_zero])

/-- A `[K, 1]` column cast to a vector reads, at `k`, the column at `(k, 0)`. -/
theorem shapeCast_a1_a_apply {α : Type} {K : ℕ} (x : (⟨2, ![K, 1]⟩ : Shape).Idx → α)
    (h : (⟨2, ![K, 1]⟩ : Shape).ShapeCasts ⟨1, ![K]⟩) (k : Fin K) :
    shapeCast ⟨1, ![K]⟩ x h (ix1 k) = x (ix2 k (0 : Fin 1)) :=
  shapeCast_apply x h _ _ (by
    rw [Shape.rowMajor_val_two, Shape.rowMajor_val_one]
    show k.val * 1 + 0 = k.val
    omega)

/-- An `[R, 1, C]` array repeated along the middle axis reads, at `(r, m, k)`, the operand at `(r, 0, k)`. -/
theorem repeat_mid_apply {α : Type} {R n C : ℕ} (v : (⟨3, ![R, 1, C]⟩ : Shape).Idx → α)
    (h : (⟨3, ![R, 1, C]⟩ : Shape).Broadcasts ⟨3, ![R, n, C]⟩) (r : Fin R) (m : Fin n) (k : Fin C) :
    broadcastTo ⟨3, ![R, n, C]⟩ v h (ix3 r m k) = v (ix3 r (0 : Fin 1) k) := by
  refine broadcastTo_apply v h (ix3 r m k) (ix3 r (0 : Fin 1) k) fun ax => ?_
  match ax with
  | ⟨0, _⟩ =>
    show r.val = if R = 1 then 0 else r.val
    split
    · have := r.isLt; omega
    · rfl
  | ⟨1, _⟩ => rfl
  | ⟨2, _⟩ =>
    show k.val = if C = 1 then 0 else k.val
    split
    · have := k.isLt; omega
    · rfl

end Cert.LibVectorReads

end
-- ==== Proof.Payloads.lean ====
import proofs.«124776_j17643725652510_2_alg».proof.Proof.Gen.KernelIdeal.Skeleton
import proofs.«124776_j17643725652510_2_alg».proof.Proof.Spec
import proofs.«124776_j17643725652510_2_alg».proof.Proof.LibVectorReads
import Idealize.ShloMosaic.Lib.ValueLayout
import Idealize.ShloMosaic.Lib.Pipeline.Value
import Idealize.ShloMosaic.PureOps.Ideal.Laws

/-!
# The body's arithmetic, read in exact arithmetic

One grid point sees a block of 20000 detection rows `x0` (six columns) and the matching block of box rows `x1`
(four columns).  In exact arithmetic:

* the point's masked partial sum is the sum over the block's rows of the row's contribution
  (indicator of confidence ≥ 1/4, times class score plus the four box coordinates);
* the point's confidence partial sum is the sum over the block's rows of the confidence;
* an accumulator update adds the partial sum to the accumulator's one entry;
* clearing an accumulator leaves zero;
* the result entry is the fallback rule applied to the two accumulators' entries.

The reductions over a block's rows are sums over one axis with no initial term; the casts between
`[20000, 1]`, `[20000]`, `[1, 20000]`, `[1]` and `[1, 1]` move no entry.
-/

noncomputable section

open scoped BigOperators

namespace Cert.KernelIdeal.Payloads

open Cert.KernelIdeal Cert.KernelIdeal.Gen Idealize.ShloMosaic Idealize.ShloMosaic.ValueIdx Cert.Spec

/-- A one-entry array has one index. -/
theorem one_entry (y : S1x1.Idx) : y = ix2 (0 : Fin 1) (0 : Fin 1) := by
  funext a
  apply Fin.ext
  match a with
  | ⟨0, _⟩ => have h : (y 0).val < 1 := (y 0).isLt; show (y 0).val = 0; omega
  | ⟨1, _⟩ => have h : (y 1).val < 1 := (y 1).isLt; show (y 1).val = 0; omega

/-! ## The columns of a block -/

/-- The confidence column of a block, as a vector over its rows. -/
theorem conf_col (x0 : Vec Ideal S20000x6 .f32) (j : Fin 20000) :
    k0_pay4 (F := Ideal) x0 (ix1 j) = x0 (ix2 j (4 : Fin 6)) :=
  (Cert.LibVectorReads.shapeCast_a1_a_apply _ shapeCasts_S20000x1_S20000 j).trans
    (slice2_axis1_apply 4 x0 slices_S20000x6_o0_4_S20000x1 j (0 : Fin 1) (4 : Fin 6) rfl)

/-- The class-score column of a block, as a vector over its rows. -/
def clsCol (x0 : Vec Ideal S20000x6 .f32) : FVec Ideal S20000 .f32 :=
  shapeCast S20000 (extractStridedSlice S20000x1 ![0, 5] x0 slices_S20000x6_o0_5_S20000x1) shapeCasts_S20000x1_S20000

theorem cls_col (x0 : Vec Ideal S20000x6 .f32) (j : Fin 20000) : clsCol x0 (ix1 j) = x0 (ix2 j (5 : Fin 6)) :=
  (Cert.LibVectorReads.shapeCast_a1_a_apply _ shapeCasts_S20000x1_S20000 j).trans
    (slice2_axis1_apply 5 x0 slices_S20000x6_o0_5_S20000x1 j (0 : Fin 1) (5 : Fin 6) rfl)

/-- The sum of a box row's four coordinates, as a vector over the block's rows. -/
def boxSum (x1 : Vec Ideal S20000x4 .f32) : FVec Ideal S20000 .f32 :=
  multiReduction .add [1] S20000 x1 0x00000000#32 reduces_S20000x4_S20000 (.inl rfl) rfl

theorem box_sum (x1 : Vec Ideal S20000x4 .f32) (j : Fin 20000) : boxSum x1 (ix1 j) = ∑ k : Fin 4, x1 (ix2 j k) :=
  Cert.LibVectorReads.sum_last2_apply x1 reduces_S20000x4_S20000 (.inl rfl) rfl j

/-- The indicator of confidence ≥ 1/4, as a vector over the block's rows. -/
def maskCol (x0 : Vec Ideal S20000x6 .f32) : FVec Ideal S20000 .f32 :=
  sitofp .f32 (extui 32 (cmpf .oge (k0_pay4 x0) (broadcast S20000 (Scalar.ofBits .f32 0x3E800000#32))) natLt_1_32)

theorem mask_col (x0 : Vec Ideal S20000x6 .f32) (j : Fin 20000) : maskCol x0 (ix1 j) = mask (x0 (ix2 j (4 : Fin 6))) := by
  show FloatOps.sitofp (F := Ideal) .f32 ((Ideal.cmp .oge (k0_pay4 (F := Ideal) x0 (ix1 j)) (Ideal.ofBits .f32 0x3E800000#32)).setWidth 32) = _
  rw [signed_of_widened, conf_col]
  rfl

/-- A block's rows' contributions, as a vector over the rows. -/
def perRow (x0 : Vec Ideal S20000x6 .f32) (x1 : Vec Ideal S20000x4 .f32) : FVec Ideal S20000 .f32 :=
  mulf (maskCol x0) (addf (clsCol x0) (boxSum x1))

theorem per_row (x0 : Vec Ideal S20000x6 .f32) (x1 : Vec Ideal S20000x4 .f32) (j : Fin 20000) :
    perRow x0 x1 (ix1 j) = rowTerm x0 x1 j := by
  show maskCol x0 (ix1 j) * (clsCol x0 (ix1 j) + boxSum x1 (ix1 j)) = _
  rw [mask_col, cls_col, box_sum]
  rfl

/-! ## The sum of a vector over the block's rows, as the body spells it -/

/-- A length-20000 vector laid as one row, summed along it, and the one entry taken out. -/
def laneTotal (v : FVec Ideal S20000 .f32) : Ideal .f32 :=
  extractAt ![0, 0] (shapeCast S1x1 (multiReduction .add [1] S1 (shapeCast S1x20000 v shapeCasts_S20000_S1x20000)
    0x00000000#32 reduces_S1x20000_S1 (.inl rfl) rfl) shapeCasts_S1_S1x1) inpos_S1x1_p0_0

theorem lane_total (v : FVec Ideal S20000 .f32) : laneTotal v = ∑ j : Fin 20000, v (ix1 j) := by
  unfold laneTotal extractAt
  refine (shapeCast_apply _ shapeCasts_S1_S1x1 _ (ix1 (0 : Fin 1)) (by
    rw [Shape.rowMajor_val_two, Shape.rowMajor_val_one]; rfl)).trans ?_
  refine (Cert.LibVectorReads.sum_last2_apply (A := 1) (B := 20000) _ reduces_S1x20000_S1 (.inl rfl) rfl (0 : Fin 1)).trans ?_
  exact Finset.sum_congr rfl fun j _ => shapeCast_a_1a_apply v shapeCasts_S20000_S1x20000 (0 : Fin 1) j

/-! ## The payloads -/

/-- The loss accumulator's update, in the vocabulary above. -/
theorem pay5_eq (x0 : Vec Ideal S20000x6 .f32) (x1 : Vec Ideal S20000x4 .f32) (a : Vec Ideal S1x1 .f32) :
    k0_pay5 (F := Ideal) x0 x1 a
      = shapeCast S1x1 (addf a (broadcast S1x1 (laneTotal (perRow x0 x1)))) shapeCasts_S1x1_S1x1 := rfl

/-- The confidence accumulator's update, in the vocabulary above. -/
theorem pay6_eq (x0 : Vec Ideal S20000x6 .f32) (a : Vec Ideal S1x1 .f32) :
    k0_pay6 (F := Ideal) x0 a
      = shapeCast S1x1 (addf a (broadcast S1x1 (laneTotal (k0_pay4 (F := Ideal) x0)))) shapeCasts_S1x1_S1x1 := rfl

/-- The loss update adds the block's masked partial sum to the accumulator's entry. -/
theorem loss_update (x0 : Vec Ideal S20000x6 .f32) (x1 : Vec Ideal S20000x4 .f32) (a : Vec Ideal S1x1 .f32) (y : S1x1.Idx) :
    k0_pay5 (F := Ideal) x0 x1 a y = a y + ∑ j : Fin 20000, rowTerm x0 x1 j := by
  rw [pay5_eq, shapeCast_self]
  show a y + laneTotal (perRow x0 x1) = _
  rw [lane_total]
  exact congrArg (a y + ·) (Finset.sum_congr rfl fun j _ => per_row x0 x1 j)

/-- The confidence update adds the block's confidence sum to the accumulator's entry. -/
theorem conf_update (x0 : Vec Ideal S20000x6 .f32) (a : Vec Ideal S1x1 .f32) (y : S1x1.Idx) :
    k0_pay6 (F := Ideal) x0 a y = a y + ∑ j : Fin 20000, rowConf x0 j := by
  rw [pay6_eq, shapeCast_self]
  show a y + laneTotal (k0_pay4 (F := Ideal) x0) = _
  rw [lane_total]
  exact congrArg (a y + ·) (Finset.sum_congr rfl fun j _ => conf_col x0 j)

/-- A cleared loss accumulator holds zero. -/
theorem loss_cleared (y : S1x1.Idx) : k0_pay2 (F := Ideal) y = 0 := by
  have e : k0_pay2 (F := Ideal) = broadcast S1x1 (Scalar.ofBits (F := Ideal) .f32 0x00000000#32) :=
    shapeCast_self _ shapeCasts_S1x1_S1x1
  rw [e]
  exact Ideal.ofBits_zero_f32

/-- A cleared confidence accumulator holds zero. -/
theorem conf_cleared (y : S1x1.Idx) : k0_pay3 (F := Ideal) y = 0 := by
  have e : k0_pay3 (F := Ideal) = broadcast S1x1 (Scalar.ofBits (F := Ideal) .f32 0x00000000#32) :=
    shapeCast_self _ shapeCasts_S1x1_S1x1
  rw [e]
  exact Ideal.ofBits_zero_f32

/-- The result entry is the fallback rule of the two accumulators' entries. -/
theorem result_rule (a b : Vec Ideal S1x1 .f32) (y : S1x1.Idx) :
    k0_pay1 (F := Ideal) a b y = fallback (a y) (b y) := rfl

end Cert.KernelIdeal.Payloads

end
-- ==== Proof.Blocks.lean ====
import proofs.«124776_j17643725652510_2_alg».proof.Proof.Gen.KernelIdeal.Frame
import proofs.«124776_j17643725652510_2_alg».proof.Proof.Spec
import Idealize.ShloMosaic.Lib.Pipeline.Value

/-!
# A block of the kernel's inputs is a band of rows of the array

At grid point `t` the kernel sees rows `20000 · t, …, 20000 · t + 19999` of each argument array: entry
`(j, e)` of the block is entry `(20000 · t + j, e)` of the array.  Hence a row's contribution, and its
confidence, computed inside a block are those of the corresponding row of the whole array.
-/

noncomputable section

open scoped BigOperators

open Idealize.ShloMosaic Idealize.ShloMosaic.TcCoe Idealize.SL.Sem

namespace Cert.KernelIdeal.Blocks

open Cert.KernelIdeal Cert.KernelIdeal.Gen Idealize.ShloMosaic.ValueIdx Cert.Spec

variable {F : FTy → Type} [FloatOps F]
variable (m : (ℓ : Loc nD τ sig) → Buf (Elt F) ℓ)

/-- Both inputs' blocks move down the rows with the grid point and never sideways. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0)

/-- The grid has 200 points. -/
theorem lt_200 (t : Fin cfg0.N) : t.val < 200 := lt_of_lt_of_eq t.isLt (show cfg0.N = 200 from N_0)

/-- The grid point as a block number. -/
def blockOf (t : Fin cfg0.N) : Fin 200 := ⟨t.val, lt_200 t⟩

/-- Entry `(j, e)` of the detections block at point `t` is entry `(20000 t + j, e)` of the detections array. -/
theorem det_block (c : Dev nD) (t : Fin cfg0.N) (j : Fin 20000) (e : Fin 6) :
    (iblk m c 0 t : Vec F S20000x6 .f32) (ix2 j e)
      = (m ((c : Thread nD τ).loc main_arg0) : Vec F S4000000x6 .f32) (ix2 (blockRow (blockOf t) j) e) := by
  have hi := block_index t
  unfold iblk
  rw [View.read_apply]
  show V m c main_arg0 _ = m (c.tc.loc main_arg0) _
  unfold V
  congr 1
  funext a
  apply Fin.ext
  match a with
  | ⟨0, _⟩ => show win0_0.index t 0 * 20000 + 1 * j.val = t.val * 20000 + j.val; rw [hi.1]; omega
  | ⟨1, _⟩ => show win0_0.index t 1 * 6 + 1 * e.val = e.val; rw [hi.2.1]; omega

/-- Entry `(j, e)` of the boxes block at point `t` is entry `(20000 t + j, e)` of the boxes array. -/
theorem box_block (c : Dev nD) (t : Fin cfg0.N) (j : Fin 20000) (e : Fin 4) :
    (iblk m c 1 t : Vec F S20000x4 .f32) (ix2 j e)
      = (m ((c : Thread nD τ).loc main_arg1) : Vec F S4000000x4 .f32) (ix2 (blockRow (blockOf t) j) e) := by
  have hi := block_index t
  unfold iblk
  rw [View.read_apply]
  show V m c main_arg1 _ = m (c.tc.loc main_arg1) _
  unfold V
  congr 1
  funext a
  apply Fin.ext
  match a with
  | ⟨0, _⟩ => show win0_1.index t 0 * 20000 + 1 * j.val = t.val * 20000 + j.val; rw [hi.2.2.1]; omega
  | ⟨1, _⟩ => show win0_1.index t 1 * 4 + 1 * e.val = e.val; rw [hi.2.2.2]; omega

end Cert.KernelIdeal.Blocks

end
-- ==== Proof.Accum.lean ====
import proofs.«124776_j17643725652510_2_alg».proof.Proof.Pieces
import proofs.«124776_j17643725652510_2_alg».proof.Proof.Payloads
import proofs.«124776_j17643725652510_2_alg».proof.Proof.Blocks

/-!
# The accumulators after each grid point

In exact arithmetic, after grid point `n` the loss accumulator's one entry is the running sum
`((0 + L₀) + L₁) + … + Lₙ` of the blocks' masked partial sums, and the confidence accumulator's entry the
running sum of the blocks' confidence sums — by induction on the point: the first point clears and adds, every
later point adds to what the point before left.  At the last point the result entry is the fallback rule
applied to the two finished sums, which are the sums over all four million rows.
-/

noncomputable section

open scoped BigOperators

open Idealize.ShloMosaic Idealize.ShloMosaic.TcCoe Idealize.SL.Sem

namespace Cert.KernelIdeal.Accum

open Cert.KernelIdeal Cert.KernelIdeal.Gen Idealize.ShloMosaic.ValueIdx Cert.Spec Cert.LibBlockSums
open Cert.KernelIdeal.Blocks (blockOf lt_200 det_block box_block)

variable (m : (ℓ : Loc nD τ sig) → Buf (Elt Ideal) ℓ)

/-- The detections array on core `c`. -/
abbrev dets (c : Dev nD) : Vec Ideal S4000000x6 .f32 := m ((c : Thread nD τ).loc main_arg0)
/-- The boxes array on core `c`. -/
abbrev boxes (c : Dev nD) : Vec Ideal S4000000x4 .f32 := m ((c : Thread nD τ).loc main_arg1)

/-- The two input blocks at a grid point. -/
abbrev blk0 (c : Dev nD) (t : Fin cfg0.N) : Vec Ideal S20000x6 .f32 := iblk m c 0 t
abbrev blk1 (c : Dev nD) (t : Fin cfg0.N) : Vec Ideal S20000x4 .f32 := iblk m c 1 t

/-- Block `t`'s masked partial sum, from the whole arrays. -/
def lossOf (c : Dev nD) (t : Fin 200) : EReal := ∑ j : Fin 20000, rowTerm (dets m c) (boxes m c) (blockRow t j)
/-- Block `t`'s confidence sum, from the whole arrays. -/
def confOf (c : Dev nD) (t : Fin 200) : EReal := ∑ j : Fin 20000, rowConf (dets m c) (blockRow t j)

/-- The partial sum the body forms from the point's blocks is the block's partial sum of the arrays. -/
theorem block_loss (c : Dev nD) (t : Fin cfg0.N) :
    ∑ j : Fin 20000, rowTerm (blk0 m c t) (blk1 m c t) j = lossOf m c (blockOf t) := by
  refine Finset.sum_congr rfl fun j _ => ?_
  show mask (blk0 m c t (ix2 j (4 : Fin 6))) * (blk0 m c t (ix2 j (5 : Fin 6)) + ∑ k : Fin 4, blk1 m c t (ix2 j k))
    = mask (dets m c (ix2 (blockRow (blockOf t) j) (4 : Fin 6))) * (dets m c (ix2 (blockRow (blockOf t) j) (5 : Fin 6))
      + ∑ k : Fin 4, boxes m c (ix2 (blockRow (blockOf t) j) k))
  have e4 : blk0 m c t (ix2 j (4 : Fin 6)) = dets m c (ix2 (blockRow (blockOf t) j) (4 : Fin 6)) := det_block m c t j 4
  have e5 : blk0 m c t (ix2 j (5 : Fin 6)) = dets m c (ix2 (blockRow (blockOf t) j) (5 : Fin 6)) := det_block m c t j 5
  have eb : ∀ k : Fin 4, blk1 m c t (ix2 j k) = boxes m c (ix2 (blockRow (blockOf t) j) k) := fun k => box_block m c t j k
  rw [e4, e5, Finset.sum_congr rfl fun k _ => eb k]

theorem block_conf (c : Dev nD) (t : Fin cfg0.N) :
    ∑ j : Fin 20000, rowConf (blk0 m c t) j = confOf m c (blockOf t) :=
  Finset.sum_congr rfl fun j _ => det_block m c t j 4

/-! ## One point at a time -/

/-- The first point: both accumulators cleared, then the block's partial sums added. -/
theorem first_point (c : Dev nD) (t : Fin cfg0.N) (h0 : t.val % 200 = 0) (h1 : ¬t.val % 200 = 199) (y : S1x1.Idx) :
    (outsAt0 m c t.val t.isLt).2.1 y = 0 + lossOf m c (blockOf t)
    ∧ (outsAt0 m c t.val t.isLt).2.2 y = 0 + confOf m c (blockOf t) := by
  rw [outsAt0_A m c t h0 h1]
  dsimp only
  constructor
  · refine (congrFun (Pieces.loss_first c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (blk0 m c t) (blk1 m c t)) y).trans ?_
    refine (Payloads.loss_update (blk0 m c t) (blk1 m c t) (k0_pay2 (F := Ideal)) y).trans ?_
    rw [Payloads.loss_cleared y, block_loss]
  · refine (congrFun (Pieces.conf_first c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (blk0 m c t) (blk1 m c t)) y).trans ?_
    refine (Payloads.conf_update (blk0 m c t) (k0_pay3 (F := Ideal)) y).trans ?_
    rw [Payloads.conf_cleared y, block_conf]

/-- A middle point: the block's partial sums added to what the point before left. -/
theorem middle_point (c : Dev nD) (t : Fin cfg0.N) (h0 : ¬t.val % 200 = 0) (h1 : ¬t.val % 200 = 199) (y : S1x1.Idx) :
    (outsAt0 m c t.val t.isLt).2.1 y = (outsAt0 m c (t.val - 1) (Nat.lt_of_le_of_lt (Nat.sub_le _ _) t.isLt)).2.1 y + lossOf m c (blockOf t)
    ∧ (outsAt0 m c t.val t.isLt).2.2 y = (outsAt0 m c (t.val - 1) (Nat.lt_of_le_of_lt (Nat.sub_le _ _) t.isLt)).2.2 y + confOf m c (blockOf t) := by
  rw [outsAt0_B m c t h0 h1]
  dsimp only
  constructor
  · refine (congrFun (Pieces.loss_middle c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (blk0 m c t) (blk1 m c t) (outsAt0 m c (t.val - 1) (Nat.lt_of_le_of_lt (Nat.sub_le _ _) t.isLt)).2.1 (outsAt0 m c (t.val - 1) (Nat.lt_of_le_of_lt (Nat.sub_le _ _) t.isLt)).2.2) y).trans ?_
    refine (Payloads.loss_update (blk0 m c t) (blk1 m c t) (outsAt0 m c (t.val - 1) (Nat.lt_of_le_of_lt (Nat.sub_le _ _) t.isLt)).2.1 y).trans ?_
    rw [block_loss]
  · refine (congrFun (Pieces.conf_middle c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (blk0 m c t) (blk1 m c t) (outsAt0 m c (t.val - 1) (Nat.lt_of_le_of_lt (Nat.sub_le _ _) t.isLt)).2.1 (outsAt0 m c (t.val - 1) (Nat.lt_of_le_of_lt (Nat.sub_le _ _) t.isLt)).2.2) y).trans ?_
    refine (Payloads.conf_update (blk0 m c t) (outsAt0 m c (t.val - 1) (Nat.lt_of_le_of_lt (Nat.sub_le _ _) t.isLt)).2.2 y).trans ?_
    rw [block_conf]

/-- The last point: the same update, and the result entry is the fallback rule of the updated accumulators. -/
theorem last_point (c : Dev nD) (t : Fin cfg0.N) (h0 : ¬t.val % 200 = 0) (h1 : t.val % 200 = 199) (y : S1x1.Idx) :
    (outsAt0 m c t.val t.isLt).2.1 y = (outsAt0 m c (t.val - 1) (Nat.lt_of_le_of_lt (Nat.sub_le _ _) t.isLt)).2.1 y + lossOf m c (blockOf t)
    ∧ (outsAt0 m c t.val t.isLt).2.2 y = (outsAt0 m c (t.val - 1) (Nat.lt_of_le_of_lt (Nat.sub_le _ _) t.isLt)).2.2 y + confOf m c (blockOf t)
    ∧ (outsAt0 m c t.val t.isLt).1 y
        = fallback ((outsAt0 m c (t.val - 1) (Nat.lt_of_le_of_lt (Nat.sub_le _ _) t.isLt)).2.1 y + lossOf m c (blockOf t)) ((outsAt0 m c (t.val - 1) (Nat.lt_of_le_of_lt (Nat.sub_le _ _) t.isLt)).2.2 y + confOf m c (blockOf t)) := by
  have eL : k0_pay5 (F := Ideal) (blk0 m c t) (blk1 m c t) (outsAt0 m c (t.val - 1) (Nat.lt_of_le_of_lt (Nat.sub_le _ _) t.isLt)).2.1 y = (outsAt0 m c (t.val - 1) (Nat.lt_of_le_of_lt (Nat.sub_le _ _) t.isLt)).2.1 y + lossOf m c (blockOf t) := by
    refine (Payloads.loss_update (blk0 m c t) (blk1 m c t) (outsAt0 m c (t.val - 1) (Nat.lt_of_le_of_lt (Nat.sub_le _ _) t.isLt)).2.1 y).trans ?_
    rw [block_loss]
  have eC : k0_pay6 (F := Ideal) (blk0 m c t) (outsAt0 m c (t.val - 1) (Nat.lt_of_le_of_lt (Nat.sub_le _ _) t.isLt)).2.2 y = (outsAt0 m c (t.val - 1) (Nat.lt_of_le_of_lt (Nat.sub_le _ _) t.isLt)).2.2 y + confOf m c (blockOf t) := by
    refine (Payloads.conf_update (blk0 m c t) (outsAt0 m c (t.val - 1) (Nat.lt_of_le_of_lt (Nat.sub_le _ _) t.isLt)).2.2 y).trans ?_
    rw [block_conf]
  rw [outsAt0_C m c t h0 h1]
  dsimp only
  refine ⟨?_, ?_, ?_⟩
  · exact (congrFun (Pieces.loss_last c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (blk0 m c t) (blk1 m c t) (outsAt0 m c (t.val - 1) (Nat.lt_of_le_of_lt (Nat.sub_le _ _) t.isLt)).2.1 (outsAt0 m c (t.val - 1) (Nat.lt_of_le_of_lt (Nat.sub_le _ _) t.isLt)).2.2) y).trans eL
  · exact (congrFun (Pieces.conf_last c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (blk0 m c t) (blk1 m c t) (outsAt0 m c (t.val - 1) (Nat.lt_of_le_of_lt (Nat.sub_le _ _) t.isLt)).2.1 (outsAt0 m c (t.val - 1) (Nat.lt_of_le_of_lt (Nat.sub_le _ _) t.isLt)).2.2) y).trans eC
  · refine (congrFun (Pieces.result_last c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (blk0 m c t) (blk1 m c t) (outsAt0 m c (t.val - 1) (Nat.lt_of_le_of_lt (Nat.sub_le _ _) t.isLt)).2.1 (outsAt0 m c (t.val - 1) (Nat.lt_of_le_of_lt (Nat.sub_le _ _) t.isLt)).2.2) y).trans ?_
    refine (Payloads.result_rule (k0_pay5 (F := Ideal) (blk0 m c t) (blk1 m c t) (outsAt0 m c (t.val - 1) (Nat.lt_of_le_of_lt (Nat.sub_le _ _) t.isLt)).2.1) (k0_pay6 (F := Ideal) (blk0 m c t) (outsAt0 m c (t.val - 1) (Nat.lt_of_le_of_lt (Nat.sub_le _ _) t.isLt)).2.2) y).trans ?_
    rw [eL, eC]

/-! ## The induction over the points -/

/-- After point `n` each accumulator holds the running sum of its blocks' partial sums through block `n`. -/
theorem acc_after (c : Dev nD) : ∀ (n : ℕ) (h : n < cfg0.N) (y : S1x1.Idx),
    (outsAt0 m c n h).2.1 y = runSum 0 (seqOf (lossOf m c)) n
    ∧ (outsAt0 m c n h).2.2 y = runSum 0 (seqOf (confOf m c)) n
  | 0, h, y => by
    have hp := first_point m c ⟨0, h⟩ (Nat.zero_mod _) (by show ¬0 % 200 = 199; decide) y
    refine ⟨hp.1.trans ?_, hp.2.trans ?_⟩
    · show 0 + lossOf m c (blockOf ⟨0, h⟩) = 0 + seqOf (lossOf m c) 0
      rw [seqOf_lt _ 0 (by decide)]; rfl
    · show 0 + confOf m c (blockOf ⟨0, h⟩) = 0 + seqOf (confOf m c) 0
      rw [seqOf_lt _ 0 (by decide)]; rfl
  | n + 1, h, y => by
    have hN : n + 1 < 200 := lt_of_lt_of_eq h (show cfg0.N = 200 from N_0)
    have h0 : ¬(⟨n + 1, h⟩ : Fin cfg0.N).val % 200 = 0 := by dsimp only; omega
    have ih := acc_after c n (Nat.lt_of_succ_lt h) y
    have step : (outsAt0 m c (n + 1) h).2.1 y = (outsAt0 m c n (Nat.lt_of_succ_lt h)).2.1 y + lossOf m c ⟨n + 1, hN⟩
        ∧ (outsAt0 m c (n + 1) h).2.2 y = (outsAt0 m c n (Nat.lt_of_succ_lt h)).2.2 y + confOf m c ⟨n + 1, hN⟩ := by
      by_cases h1 : (⟨n + 1, h⟩ : Fin cfg0.N).val % 200 = 199
      · have hp := last_point m c ⟨n + 1, h⟩ h0 h1 y
        exact ⟨hp.1, hp.2.1⟩
      · exact middle_point m c ⟨n + 1, h⟩ h0 h1 y
    refine ⟨step.1.trans ?_, step.2.trans ?_⟩
    · show _ = runSum 0 (seqOf (lossOf m c)) n + seqOf (lossOf m c) (n + 1)
      rw [ih.1, seqOf_lt _ (n + 1) hN]
    · show _ = runSum 0 (seqOf (confOf m c)) n + seqOf (confOf m c) (n + 1)
      rw [ih.2, seqOf_lt _ (n + 1) hN]

/-- At the last point the result entry is the fallback rule of the two accumulators as that point leaves them. -/
theorem last_result (c : Dev nD) (t : Fin cfg0.N) (h0 : ¬t.val % 200 = 0) (h1 : t.val % 200 = 199) (y : S1x1.Idx) :
    (outsAt0 m c t.val t.isLt).1 y
      = fallback ((outsAt0 m c t.val t.isLt).2.1 y) ((outsAt0 m c t.val t.isLt).2.2 y) := by
  have hp := last_point m c t h0 h1 y
  rw [hp.1, hp.2.1]
  exact hp.2.2

/-- Accumulating, from zero through the last block, block sums `g` of a function `f` of the row gives the sum of
    `f` over all rows. -/
theorem run_rows (f : Fin 4000000 → EReal) (g : Fin 200 → EReal) (hg : ∀ t, g t = ∑ j : Fin 20000, f (blockRow t j)) :
    runSum 0 (seqOf g) 199 = ∑ r, f r := by
  rw [run_all, sum_by_blocks]
  exact Finset.sum_congr rfl fun t _ => hg t

/-- The last point's number. -/
theorem last_lt : 199 < cfg0.N := by rw [show cfg0.N = 200 from N_0]; decide

/-- The last grid point. -/
abbrev tLast : Fin cfg0.N := ⟨199, last_lt⟩

/-- The result entry after the last point is the answer computed from the whole arrays. -/
theorem result_at (c : Dev nD) (t : Fin cfg0.N) (h1 : t.val % 200 = 199) (y : S1x1.Idx) :
    (outsAt0 m c t.val t.isLt).1 y = total (dets m c) (boxes m c) := by
  have hlt := lt_200 t
  have h199 : t.val = 199 := by omega
  have hr := last_result m c t (by omega) h1 y
  have ha := acc_after m c t.val t.isLt y
  rw [hr, ha.1, ha.2, h199]
  unfold total
  rw [run_rows (rowTerm (dets m c) (boxes m c)) (lossOf m c) (fun _ => rfl),
    run_rows (rowConf (dets m c)) (confOf m c) (fun _ => rfl)]

end Cert.KernelIdeal.Accum

end
-- ==== Proof.KValue.lean ====
import proofs.«124776_j17643725652510_2_alg».proof.Proof.Accum
import Idealize.ShloMosaic.Lib.Pipeline.Value
import Idealize.ShloMosaic.Lib.StableHlo.Run

/-!
# What the kernel program returns

The result window is one `[1, 1]` block at index `(0, 0)`, written back at the last grid point only, and that
one block is the whole `[1, 1]` result array: so after the run the array holds, at its one entry, the answer
computed from the whole argument arrays.  The program then reshapes `[1, 1]` to a scalar, which moves no entry.
-/

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx Cert.Spec
open Cert.KernelIdeal.Accum (dets boxes last_lt tLast result_at)
open Cert.KernelIdeal.Blocks (lt_200)

variable (m : (ℓ : Loc nD τ sig) → Buf (Elt Ideal) ℓ) (ρ : Dev nD → PrngReg)

attribute [local irreducible] Cert.Spec.total

/-- The `[1, 1]` result array after the run: the answer at its one entry. -/
def resultArr (c : Dev nD) : Buf (Elt Ideal) ((c : Thread nD τ).loc main_v0) := fun _ => total (dets m c) (boxes m c)

/-- The scalar the program returns. -/
def resultScalar (c : Dev nD) : Buf (Elt Ideal) ((c : Thread nD τ).loc main_v1) := fun _ => total (dets m c) (boxes m c)

/-- The result array's one entry. -/
theorem resultArr_apply (c : Dev nD) (i : S1x1.Idx) : resultArr m c i = total (dets m c) (boxes m c) := rfl

/-- The one write-back, at the last point, writes the answer. -/
theorem flushed_eq (c : Dev nD) (t : Fin cfg0.N) (hf : (cfg0.win 2).flush t = true) :
    (dats m 0 c).flushed 2 t = ((cfg0.win 2).blk t).view.read (Elt Ideal) (resultArr m c) := by
  have h1 : t.val % 200 = 199 := (flush0_2 t).mp hf
  funext y
  show (dats m 0 c).after 2 t ((cfg0.win 2).xinj (grid0.coords t) y) = _
  rw [after0_2, View.read_apply]
  have key : (outsAt0 m c t.val t.isLt).1 ((cfg0.win 2).xinj (grid0.coords t) y) = total (dets m c) (boxes m c) :=
    result_at m c t h1 _
  refine key.trans ?_
  rw [cast_eq]
  exact (resultArr_apply m c _).symm

/-- So the result array ends holding the answer: the last point's block covers it. -/
theorem final_out (c : Dev nD) : (dats m 0 c).arrAt 2 cfg0.N = resultArr m c :=
  (dats m 0 c).arrAt_eq_of_cover 2 (resultArr m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The reshape to a scalar of the one-entry array holding the answer is the scalar holding the answer. -/
theorem tail_eq (c : Dev nD) :
    Pipeline.afterTail₀ cfgs (dats m) 0 (V0 m) [hostOps1] c main_v1 = resultScalar m c := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.tc.devRef main_v0)
      = resultArr m c :=
    (Pipeline.withArrays_arr spec0 launch0.win.arr_inj c _ _ 2).trans (final_out m c)
  rw [e]
  rfl

/-- The scalar result is no array of the pipeline and outlives the kernel. -/
theorem v1_rest : main_v1 ∈ Pipeline.restRefs sig (cfgs 0).spec :=
  Pipeline.mem_restRefs_of main_v1 rfl (fun w => by fin_cases w <;> decide)

/-- The run, read: the returned scalar holds the answer, the arguments are unchanged. -/
theorem run : θ_run defs (onTc (τ := τ) (main (F := Ideal))) ⟨m, fun _ => 0, ρ⟩ fun r => ∀ c : Dev nD,
      r.2.mem ((c.tc : Thread nD τ).loc main_v1) = resultScalar m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 v1_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.RefValue.lean ====
import proofs.«124776_j17643725652510_2_alg».proof.Proof.Gen.ReferenceIdeal.Read
import proofs.«124776_j17643725652510_2_alg».proof.Proof.Spec

/-!
# The reference computes the same function

Read one operation at a time in exact arithmetic, the reference takes the confidence column, compares it with
1/4 and converts the truth value to 0 or 1, adds the class-score column to the row sums of the boxes, multiplies,
and sums over all four million rows from zero; it sums the confidence column the same way; and it applies the
fallback rule.  That is `Spec.total` of the two arrays: the sums over a one-axis index set are sums over the row
number, and a sum started from zero is the sum.
-/

noncomputable section

open scoped BigOperators

namespace Cert.ReferenceIdeal.RefValue

open Cert.ReferenceIdeal Cert.ReferenceIdeal.Read Idealize.ShloMosaic Idealize.ShloMosaic.ValueIdx Cert.Spec

/-- The indices of a length-`n` vector are the numbers below `n`. -/
def rowIdx (n : Nat) : Fin n ≃ (⟨1, ![n]⟩ : Shape).Idx where
  toFun := ix1
  invFun j := j 0
  left_inv _ := rfl
  right_inv j := (eq_ix1 j).symm

/-- A sum over a vector's indices is the sum over the row number. -/
theorem sum_rows {n : Nat} (f : (⟨1, ![n]⟩ : Shape).Idx → EReal) : ∑ j, f j = ∑ r : Fin n, f (ix1 r) :=
  (Equiv.sum_comp (rowIdx n) f).symm

/-- Column 4 of row `r`, as the reference's slice and reshape find it. -/
theorem conf_index (r : Fin 4000000) : idx_main_v0 (idx_main_v1 (ix1 r)) = ix2 r (4 : Fin 6) := by
  funext a
  apply Fin.ext
  match a with
  | ⟨0, _⟩ => show r.val / 1 = r.val; exact Nat.div_one _
  | ⟨1, _⟩ => rfl

/-- Column 5 of row `r`. -/
theorem cls_index (r : Fin 4000000) : idx_main_v5 (idx_main_v6 (ix1 r)) = ix2 r (5 : Fin 6) := by
  funext a
  apply Fin.ext
  match a with
  | ⟨0, _⟩ => show r.val / 1 = r.val; exact Nat.div_one _
  | ⟨1, _⟩ => rfl

/-- Column 4 of row `r`, as the second slice and reshape find it. -/
theorem conf_index' (r : Fin 4000000) : idx_main_v12 (idx_main_v13 (ix1 r)) = ix2 r (4 : Fin 6) := by
  funext a
  apply Fin.ext
  match a with
  | ⟨0, _⟩ => show r.val / 1 = r.val; exact Nat.div_one _
  | ⟨1, _⟩ => rfl

/-- Coordinate `k` of box row `r`. -/
theorem box_index (r : Fin 4000000) (k : Fin 4) : idx_main_v7 (ix1 r) k = ix2 r k := by
  funext a
  apply Fin.ext
  match a with
  | ⟨0, _⟩ => rfl
  | ⟨1, _⟩ => rfl

/-- The reference's per-row product is the row's contribution. -/
theorem row_value (x0 : Vec Ideal S4000000x6 .f32) (x1 : Vec Ideal S4000000x4 .f32) (r : Fin 4000000) :
    val_main_v9 (F := Ideal) x0 x1 (ix1 r) = rowTerm x0 x1 r := by
  rw [val_main_v9_apply, val_main_v4_apply, val_main_v3_apply, val_main_v1_apply, val_main_v0_apply, val_main_v2_apply,
    val_main_cst_apply, val_main_v8_apply, val_main_v6_apply, val_main_v5_apply, val_main_v7_apply, val_main_cst_0_apply,
    conf_index, cls_index, Finset.sum_congr rfl fun k _ => congrArg x1 (box_index r k)]
  show mask (x0 (ix2 r (4 : Fin 6))) * (x0 (ix2 r (5 : Fin 6)) + (Ideal.ofBits .f32 0x00000000#32 + ∑ k : Fin 4, x1 (ix2 r k))) = _
  rw [Ideal.ofBits_zero_f32, zero_add]
  rfl

/-- The reference's confidence vector at row `r`. -/
theorem conf_value (x0 : Vec Ideal S4000000x6 .f32) (r : Fin 4000000) :
    val_main_v13 (F := Ideal) x0 (ix1 r) = rowConf x0 r := by
  rw [val_main_v13_apply, val_main_v12_apply, conf_index']
  rfl

/-- The reference's loss sum is the sum of the rows' contributions. -/
theorem loss_sum (x0 : Vec Ideal S4000000x6 .f32) (x1 : Vec Ideal S4000000x4 .f32) (i : S_.Idx) :
    val_main_v10 (F := Ideal) x0 x1 i = ∑ r : Fin 4000000, rowTerm x0 x1 r := by
  rw [val_main_v10_apply, val_main_cst_1_apply, sum_rows]
  show Ideal.ofBits .f32 0x00000000#32 + _ = _
  rw [Ideal.ofBits_zero_f32, zero_add]
  exact Finset.sum_congr rfl fun r _ => row_value x0 x1 r

/-- The reference's confidence sum is the sum of the rows' confidences. -/
theorem conf_sum (x0 : Vec Ideal S4000000x6 .f32) (i : S_.Idx) :
    val_main_v14 (F := Ideal) x0 i = ∑ r : Fin 4000000, rowConf x0 r := by
  rw [val_main_v14_apply, val_main_cst_3_apply, sum_rows]
  show Ideal.ofBits .f32 0x00000000#32 + _ = _
  rw [Ideal.ofBits_zero_f32, zero_add]
  exact Finset.sum_congr rfl fun r _ => conf_value x0 r

/-- The reference's result is the answer computed from the whole arrays. -/
theorem result_eq (x0 : Vec Ideal S4000000x6 .f32) (x1 : Vec Ideal S4000000x4 .f32) :
    val_main_v16 (F := Ideal) x0 x1 = fun _ => total x0 x1 := by
  funext i
  rw [val_main_v16_apply, val_main_v11_apply, val_main_v15_apply, loss_sum, conf_sum]
  rfl

end Cert.ReferenceIdeal.RefValue

end
-- ==== Proof.lean ====
/-
  The claim: the kernel, its idealization and the reference all run to completion leaving their arguments
  unchanged; the idealization rewrote nothing; and in exact arithmetic the kernel and the reference return the
  same number.

  Both return `fallback L C`, where `L` is the sum over all 4,000,000 rows of
  (1 if confidence ≥ 1/4 else 0) · (class score + the four box coordinates), `C` the sum of all confidences,
  and `fallback L C` is `C · 0` when `L = 0` and `L` otherwise.  The reference forms the two sums in one
  reduction each.  The kernel forms them 20,000 rows at a time over 200 grid points, keeping the two running
  sums in one-entry accumulators that are cleared at the first point, and applies the fallback rule at the last
  point.  A finite sum taken in consecutive blocks and accumulated block by block is the sum: only
  commutativity and associativity of addition are used, so the values may be infinite and the precondition
  (finite inputs) is not needed for the equality.
-/
import proofs.«124776_j17643725652510_2_alg».proof.Defs
import proofs.«124776_j17643725652510_2_alg».proof.Proof.Gen.Kernel
import proofs.«124776_j17643725652510_2_alg».proof.Proof.Gen.Kernel.Skeleton
import proofs.«124776_j17643725652510_2_alg».proof.Proof.Gen.Kernel.Launch
import proofs.«124776_j17643725652510_2_alg».proof.Proof.Gen.Kernel.Points
import proofs.«124776_j17643725652510_2_alg».proof.Proof.Gen.Kernel.Frame
import proofs.«124776_j17643725652510_2_alg».proof.Proof.Gen.KernelIdeal
import proofs.«124776_j17643725652510_2_alg».proof.Proof.Gen.KernelIdeal.Skeleton
import proofs.«124776_j17643725652510_2_alg».proof.Proof.Gen.KernelIdeal.Launch
import proofs.«124776_j17643725652510_2_alg».proof.Proof.Gen.KernelIdeal.Points
import proofs.«124776_j17643725652510_2_alg».proof.Proof.Gen.KernelIdeal.Frame
import proofs.«124776_j17643725652510_2_alg».proof.Proof.Gen.ReferenceIdeal
import proofs.«124776_j17643725652510_2_alg».proof.Proof.Gen.ReferenceIdeal.Run
import proofs.«124776_j17643725652510_2_alg».proof.Proof.Gen.ReferenceIdeal.Read
import proofs.«124776_j17643725652510_2_alg».proof.Proof.Gen.Pre_finite_inputs
import proofs.«124776_j17643725652510_2_alg».proof.Proof.KValue
import proofs.«124776_j17643725652510_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Idealizing the kernel rewrote no operation. -/
theorem preserves : Cert.preserves_Kernel_KernelIdeal := trivial

/-- In exact arithmetic both programs return the same function of the two arrays. -/
theorem algebraic : Cert.algebraic_KernelIdeal_ReferenceIdeal := by
  intro m ρ m' ρ' _ hagree
  refine ⟨fun c => Cert.KernelIdeal.KValue.resultScalar m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
